-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4x2048x4096 .f32) (main_arg2 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x4096 .f32 := Host.absf main_arg1
  let main_cst_0 : FVec F S_ .f32 := constant S_ .f32 0x7F800000#32
  let main_v5 : FVec F S4x2048x4096 .f32 := broadcastInDim S4x2048x4096 ![] bcast_S_S4x2048x4096 main_cst_0
  let main_v6 : IVec S4x2048x4096 1 := cmpf .olt main_v4 main_v5
  let main_c_1 : IVec S_ 1 := constantI S_ 1 1#1
  let main_v7 : IVec S_ 1 := (fun x v => Host.reduce IntOp.andi x v reducesTo_S4x2048x4096_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096x4096, .f32⟩
  | .hbm, ⟨3, _⟩ => ⟨S8192x4096, .f32⟩
  | .hbm, ⟨4, _⟩ => ⟨S8192x4096, .f32⟩
  | .hbm, ⟨5, _⟩ => ⟨S8192x4096, .bf16⟩
  | .hbm, ⟨6, _⟩ => ⟨S4096x4096, .bf16⟩
  | .hbm, ⟨7, _⟩ => ⟨S8192x4096, .f32⟩
  | .hbm, ⟨8, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S8192x4096_S4x2048x4096 : S8192x4096.ShapeCasts S4x2048x4096
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096x4096, .f32⟩
  | .hbm, ⟨3, _⟩ => ⟨S4x2048x4096, .f32⟩
  | .hbm, ⟨4, _⟩ => ⟨S_, .f32⟩
  | .hbm, ⟨5, _⟩ => ⟨S4x2048x4096, .f32⟩
  | .hbm, ⟨6, _⟩ => ⟨S4x2048x4096, .i1⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S_, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .i1⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S_, .f32⟩
  | .hbm, ⟨29, _⟩ => ⟨S4x2048x4096, .f32⟩
  | .hbm, ⟨30, _⟩ => ⟨S4x2048x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x2048x4096, .f32⟩
  | .hbm, ⟨35, _⟩ => ⟨S4x2048x4096, .f32⟩
  | .hbm, ⟨36, _⟩ => ⟨S_, .f32⟩
  | .hbm, ⟨37, _⟩ => ⟨S4x2048x4096, .f32⟩
  | .hbm, ⟨38, _⟩ => ⟨S4x2048x4096, .f32⟩
  | .hbm, ⟨39, _⟩ => ⟨S4x2048x4096, .f32⟩
  | .hbm, ⟨40, _⟩ => ⟨S_, .f32⟩
  | .hbm, ⟨41, _⟩ => ⟨S4x2048x4096, .f32⟩
  | .hbm, ⟨42, _⟩ => ⟨S4x2048x4096, .f32⟩
  | .hbm, ⟨43, _⟩ => ⟨S_, .f32⟩
  | .hbm, ⟨44, _⟩ => ⟨S4x2048x4096, .f32⟩
  | .hbm, ⟨45, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_cst : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_cst_3 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v12 : Ref sig .tc := ⟨.hbm, 38, rfl⟩
abbrev main_v13 : Ref sig .tc := ⟨.hbm, 39, rfl⟩
abbrev main_cst_4 : Ref sig .tc := ⟨.hbm, 40, rfl⟩
abbrev main_v14 : Ref sig .tc := ⟨.hbm, 41, rfl⟩
abbrev main_v15 : Ref sig .tc := ⟨.hbm, 42, rfl⟩
abbrev main_cst_5 : Ref sig .tc := ⟨.hbm, 43, rfl⟩
abbrev main_v16 : Ref sig .tc := ⟨.hbm, 44, rfl⟩
abbrev main_v17 : Ref sig .tc := ⟨.hbm, 45, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.KernelPieces.lean ====
/-
  What one run of the kernel body leaves behind, as values, in each of its three control cases.

  At the first step of a contraction (case A) the body stores the zero block into the accumulator, reads it
  back, and stores the accumulate step of it: the accumulator ends at the accumulate step of the zero block and
  the step's two input blocks. At a middle step (case B) it ends at the accumulate step of what the step before
  left. At the last step (case C) the accumulator ends the same way, and the output block ends at the activation
  store of that accumulator and the addend block. Every store covers its whole buffer, so reading the stores
  back is reading the last one.
-/
import proofs.«154402_j1580547970119_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- A middle step leaves the accumulate step of the previous accumulator and the step's two input blocks. -/
theorem scratch_B (c : Dev nD) (i : grid0.Coords)
    (a3 : Memref sig .tc .vmem S1024x512 .bf16) (h3 : a3.IsWhole) (a4 : Memref sig .tc .vmem S512x1024 .bf16) (h4 : a4.IsWhole)
    (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : ¬cond0_1 i)
    (x0 : Vec F S1024x512 .bf16) (x1 : Vec F S512x1024 .bf16) (x2 : Vec F S1024x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1024x512) hz, View.ld_unit_zero (S := S512x1024) hz]

/-- The first step leaves the accumulate step of the zero block: the zero store is read back before the step's store. -/
theorem scratch_A (c : Dev nD) (i : grid0.Coords)
    (a3 : Memref sig .tc .vmem S1024x512 .bf16) (h3 : a3.IsWhole) (a4 : Memref sig .tc .vmem S512x1024 .bf16) (h4 : a4.IsWhole)
    (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole) (hc0 : cond0_0 i) (hc1 : ¬cond0_1 i)
    (x0 : Vec F S1024x512 .bf16) (x1 : Vec F S512x1024 .bf16) (x2 : Vec F S1024x1024 .f32) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h7.read_unread,
    View.ld_unit_zero (S := S1024x1024) hz, View.ld_unit_zero (S := S1024x512) hz, View.ld_unit_zero (S := S512x1024) hz]

/-- The last step leaves the accumulator as a middle step does. -/
theorem scratch_C (c : Dev nD) (i : grid0.Coords)
    (a3 : Memref sig .tc .vmem S1024x512 .bf16) (h3 : a3.IsWhole) (a4 : Memref sig .tc .vmem S512x1024 .bf16) (h4 : a4.IsWhole)
    (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i)
    (x0 : Vec F S1024x512 .bf16) (x1 : Vec F S512x1024 .bf16) (x2 : Vec F S1024x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1024x512) hz, View.ld_unit_zero (S := S512x1024) hz]

/-- The last step leaves in the output block the activation store of the finished accumulator and the addend block. -/
theorem out_C (c : Dev nD) (i : grid0.Coords)
    (a3 : Memref sig .tc .vmem S1024x512 .bf16) (h3 : a3.IsWhole) (a4 : Memref sig .tc .vmem S512x1024 .bf16) (h4 : a4.IsWhole)
    (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i)
    (x0 : Vec F S1024x512 .bf16) (x1 : Vec F S512x1024 .bf16) (x2 : Vec F S1024x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1024x512) hz, View.ld_unit_zero (S := S512x1024) hz]

end Cert.KernelIdeal.Pieces

end
-- ==== Proof.Activation.lean ====
/-
  The activation chain of the fused kernel, as one function of two extended reals: the accumulated
  matrix-product entry `s` and the addend entry `y`.

    v  = (if s ≥ 0 then s else 0.01 · s) + y                    leaky rectifier, then the addend
    sp = max v 0 + log(1 + exp(0 − |v − 0|))                    softplus, as log-add-exp of v and 0
    h  = v · tanh sp                                            the Mish activation
    result = h · min 6 (max 0 (h + 3)) · (1/6 as a float) + 1/2  the hard-swish activation, shifted

  The float literals stay as their binary words: both programs carry the same words, so they are never evaluated.
  The guard in front of the softplus compares `v − 0` with itself for inequality, which on the extended
  reals (where every value equals itself) never fires.
-/
import Idealize.ShloMosaic.PureOps.Ideal
import Idealize.ShloMosaic.PureOps.Ideal.Laws

noncomputable section

namespace Cert.Activation

open Idealize.ShloMosaic

/-- The whole chain at one entry. -/
def epi (s y : EReal) : EReal :=
  let z : EReal := Ideal.ofBits .f32 0x00000000#32
  let v : EReal := Scalar.select (Ideal.cmp .oge s z) s (Ideal.ofBits .f32 0x3C23D70A#32 * s) + y
  let d : EReal := v - z
  let sp : EReal := Scalar.select (Ideal.cmp .one d d) (v + z) (max v z + Ideal.log1p (Ideal.exp (z - max d (-d))))
  let h : EReal := v * Ideal.tanh sp
  h * min (Ideal.ofBits .f32 0x40C00000#32) (max z (h + Ideal.ofBits .f32 0x40400000#32)) * Ideal.ofBits .f32 0x3E2AAAAB#32
    + Ideal.ofBits .f32 0x3F000000#32

/-- The same chain with the exponent written as a negation, `−|v − 0|`, instead of the difference `0 − |v − 0|`:
    on the extended reals `0 − a = −a`. -/
theorem epi_neg_form (s y : EReal) :
    epi s y =
      (let z : EReal := Ideal.ofBits .f32 0x00000000#32
       let v : EReal := Scalar.select (Ideal.cmp .oge s z) s (Ideal.ofBits .f32 0x3C23D70A#32 * s) + y
       let d : EReal := v - z
       let sp : EReal := Scalar.select (Ideal.cmp .une d d) (v + z) (max v z + Ideal.log1p (Ideal.exp (-(max d (-d)))))
       let h : EReal := v * Ideal.tanh sp
       h * min (Ideal.ofBits .f32 0x40C00000#32) (max z (h + Ideal.ofBits .f32 0x40400000#32)) * Ideal.ofBits .f32 0x3E2AAAAB#32
         + Ideal.ofBits .f32 0x3F000000#32) := by
  unfold epi
  dsimp only
  have hz : ∀ a : EReal, Ideal.ofBits .f32 0x00000000#32 - a = -a := fun a => by
    rw [Ideal.ofBits_zero_f32, zero_sub]
  rw [hz]
  rfl

end Cert.Activation

end
-- ==== Proof.KernelPayloads.lean ====
/-
  The kernel body's three stored values, read at an entry over the extended reals.

  The first store writes the zero block. The second writes, at entry (p, q) of the accumulator block, the
  accumulator's previous entry plus the product of row `p` of the left block with column `q` of the right block
  (512 terms; the matrix unit starts from a zero accumulator, which adds nothing). The third writes, at every
  entry, the activation chain of the accumulator's entry and the addend block's entry.
-/
import proofs.«154402_j1580547970119_2_alg».proof.Proof.Gen.KernelIdeal.Skeleton
import proofs.«154402_j1580547970119_2_alg».proof.Proof.Activation
import Idealize.ShloMosaic.Lib.Pipeline.Value
import Idealize.ShloMosaic.Lib.ValueIdx
import Idealize.ShloMosaic.PureOps.Ideal.Laws

noncomputable section

namespace Cert.KernelIdeal.Payloads

open Idealize.ShloMosaic Idealize.ShloMosaic.ValueIdx Cert.KernelIdeal Cert.KernelIdeal.Gen Cert.Activation

/-- The zero block, at any entry. -/
theorem pay1_apply (j : S1024x1024.Idx) : k0_pay1 (F := Ideal) j = 0 := by
  unfold k0_pay1
  simp only [shapeCast_self]
  exact Ideal.ofBits_zero_f32

/-- The left operand's row coordinate at a product entry is the entry's row. -/
theorem lhs_row (i : S1024x1024.Idx) (k : dot_S1024x512_S512x1024_S1024x1024_1_0_0_1_n_n.contr.Idx) :
    (dot_S1024x512_S512x1024_S1024x1024_1_0_0_1_n_n.lhsIdx i k 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

/-- The right operand's column coordinate at a product entry is the entry's column. -/
theorem rhs_col (i : S1024x1024.Idx) (k : dot_S1024x512_S512x1024_S1024x1024_1_0_0_1_n_n.contr.Idx) :
    (dot_S1024x512_S512x1024_S1024x1024_1_0_0_1_n_n.rhsIdx i k 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The accumulate step at entry (p, q): the previous entry plus row `p` times column `q` over the block's 512 positions. -/
theorem pay2_apply (v3 : FVec Ideal S1024x1024 .f32) (v4 : FVec Ideal S1024x512 .bf16) (v6 : FVec Ideal S512x1024 .bf16)
    (p q : Fin 1024) :
    k0_pay2 (F := Ideal) v3 v4 v6 (ix2 p q) = v3 (ix2 p q) + ∑ l : Fin 512, v4 (ix2 p l) * v6 (ix2 l q) := by
  unfold k0_pay2
  simp only [shapeCast_self]
  refine congrArg (v3 (ix2 p q) + ·) ?_
  refine (Ideal.matmul_constant_zero_apply dot_S1024x512_S512x1024_S1024x1024_1_0_0_1_n_n none v4 v6 (ix2 p q)).trans ?_
  rw [← Equiv.sum_comp (contrEquiv1 dot_S1024x512_S512x1024_S1024x1024_1_0_0_1_n_n 512 rfl rfl).symm]
  refine Finset.sum_congr rfl fun l _ => ?_
  have hl := contrEquiv1_symm_val dot_S1024x512_S512x1024_S1024x1024_1_0_0_1_n_n 512 rfl rfl l
  have el : dot_S1024x512_S512x1024_S1024x1024_1_0_0_1_n_n.lhsIdx (ix2 p q)
      ((contrEquiv1 dot_S1024x512_S512x1024_S1024x1024_1_0_0_1_n_n 512 rfl rfl).symm l) = ix2 p l :=
    funext fun a => Fin.ext (by
      match a with
      | ⟨0, _⟩ => exact lhs_row _ _
      | ⟨1, _⟩ => exact (dot_S1024x512_S512x1024_S1024x1024_1_0_0_1_n_n.lhsIdx_val_of_single rfl _ _).trans hl)
  have er : dot_S1024x512_S512x1024_S1024x1024_1_0_0_1_n_n.rhsIdx (ix2 p q)
      ((contrEquiv1 dot_S1024x512_S512x1024_S1024x1024_1_0_0_1_n_n 512 rfl rfl).symm l) = ix2 l q :=
    funext fun a => Fin.ext (by
      match a with
      | ⟨0, _⟩ => exact (dot_S1024x512_S512x1024_S1024x1024_1_0_0_1_n_n.rhsIdx_val_of_single rfl _ _).trans hl
      | ⟨1, _⟩ => exact rhs_col _ _)
  rw [el, er]

/-- The last step's store at any entry: the activation chain of the accumulator's entry and the addend's entry. -/
theorem pay3_apply (v16 v22 : Vec Ideal S1024x1024 .f32) (j : S1024x1024.Idx) :
    k0_pay3 (F := Ideal) v16 v22 j = epi (v16 j) (v22 j) := by
  unfold k0_pay3
  simp only [shapeCast_self]
  rfl

end Cert.KernelIdeal.Payloads

end
-- ==== Proof.LibBlockDot.lean ====
/-
  A row-by-column product over the extended reals, cut into consecutive chunks of the contracted axis.

  `at2 A r k` is entry (r, k) of a rank-2 array, extended by 0 outside the array, so that rows, columns and the
  contracted position can be plain natural numbers (block offset plus position inside the block) with no bound
  carried in the index. `pdot X W r q n` is the product of row `r` of `X` with column `q` of `W` over the first `n`
  positions of the contracted axis; adding the next `l` positions is adding their chunk (`pdot_add`): the only
  law used is that a finite sum over a range splits at a point, which needs no finiteness of the terms.
-/
import Idealize.ShloMosaic.PureOps.Ideal
import Idealize.ShloMosaic.Lib.ValueIdx

noncomputable section

namespace Cert.BlockDot

open Idealize.ShloMosaic Idealize.ShloMosaic.ValueIdx

/-- Entry (r, k) of a rank-2 array of extended reals, 0 outside its extents. -/
def at2 {a b : ℕ} (A : (⟨2, ![a, b]⟩ : Shape).Idx → EReal) (r k : ℕ) : EReal :=
  if h : r < a ∧ k < b then A (ix2 ⟨r, h.1⟩ ⟨k, h.2⟩) else 0

/-- At an index of the array, read through its two coordinates' values, it is the array's entry. -/
theorem at2_of_val {a b : ℕ} (A : (⟨2, ![a, b]⟩ : Shape).Idx → EReal) (j : (⟨2, ![a, b]⟩ : Shape).Idx) {r k : ℕ}
    (h0 : (j 0).val = r) (h1 : (j 1).val = k) : at2 A r k = A j := by
  subst h0 h1
  unfold at2
  rw [dif_pos ⟨(j 0).isLt, (j 1).isLt⟩]
  exact congrArg A (eq_ix2 j).symm

/-- Row `r` of `X` times column `q` of `W` over the first `n` positions of the contracted axis. -/
def pdot {a b c : ℕ} (X : (⟨2, ![a, b]⟩ : Shape).Idx → EReal) (W : (⟨2, ![b, c]⟩ : Shape).Idx → EReal)
    (r q n : ℕ) : EReal :=
  ∑ k ∈ Finset.range n, at2 X r k * at2 W k q

theorem pdot_zero {a b c : ℕ} (X : (⟨2, ![a, b]⟩ : Shape).Idx → EReal) (W : (⟨2, ![b, c]⟩ : Shape).Idx → EReal)
    (r q : ℕ) : pdot X W r q 0 = 0 :=
  Finset.sum_range_zero _

/-- The next `l` positions add their chunk. -/
theorem pdot_add {a b c : ℕ} (X : (⟨2, ![a, b]⟩ : Shape).Idx → EReal) (W : (⟨2, ![b, c]⟩ : Shape).Idx → EReal)
    (r q n l : ℕ) :
    pdot X W r q (n + l) = pdot X W r q n + ∑ k ∈ Finset.range l, at2 X r (n + k) * at2 W (n + k) q :=
  Finset.sum_range_add _ n l

/-- A chunk summed over `Fin l` is the same chunk summed over the range. -/
theorem chunk_fin {a b c : ℕ} (X : (⟨2, ![a, b]⟩ : Shape).Idx → EReal) (W : (⟨2, ![b, c]⟩ : Shape).Idx → EReal)
    (r q n l : ℕ) :
    ∑ k : Fin l, at2 X r (n + k.val) * at2 W (n + k.val) q = ∑ k ∈ Finset.range l, at2 X r (n + k) * at2 W (n + k) q :=
  Fin.sum_univ_eq_sum_range (fun k => at2 X r (n + k) * at2 W (n + k) q) l

end Cert.BlockDot

end
-- ==== Proof.KernelBlocks.lean ====
/-
  The blocks the pipeline stages at a grid point, as entries of their arrays.

  The 256 points are ordered with the contraction step innermost: point `t` works on row block `t / 32`
  (1024 rows), column block `(t / 8) % 4` (1024 columns) and contraction step `t % 8` (512 positions). The left
  operand's block at `t` is rows of the row block by positions of the step; the right operand's is positions of
  the step by columns of the column block; the addend's and the output's are rows of the row block by columns
  of the column block. An entry of a block is the array's entry at block offset plus inner coordinate.
-/
import proofs.«154402_j1580547970119_2_alg».proof.Proof.Gen.KernelIdeal.Frame
import proofs.«154402_j1580547970119_2_alg».proof.Proof.LibBlockDot
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen Cert.BlockDot

variable (m : (ℓ : Loc nD τ sig) → Buf (Elt Ideal) ℓ)

/-- Which block of its array each window stages at point `t`, decided over the grid. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The left operand (rows × contracted positions), as the region finds it. -/
abbrev XA (c : Dev nD) : S8192x4096.Idx → EReal := V m c main_v2
/-- The right operand (contracted positions × columns). -/
abbrev WA (c : Dev nD) : S4096x4096.Idx → EReal := V m c main_v3
/-- The addend (rows × columns). -/
abbrev YA (c : Dev nD) : S8192x4096.Idx → EReal := V m c main_v1

/-- The left block at `t`, entry (p, l): row `1024·(t/32) + p`, position `512·(t%8) + l`. -/
theorem lhs_block (c : Dev nD) (t : Fin cfg0.N) (p : Fin 1024) (l : Fin 512) :
    (iblk m c 0 t : Vec Ideal S1024x512 .bf16) (ix2 p l)
      = at2 (XA m c) (1024 * (t.val / 32) + p.val) (512 * (t.val % 8) + l.val) := by
  unfold iblk
  rw [View.read_apply]
  show V m c main_v2 (((cfg0.win 0).blk t).view.emb (ix2 p l)) = _
  refine (at2_of_val (XA m c) _ ?_ ?_).symm
  · show win0_0.index t (0 : Fin 2) * 1024 + 1 * p.val = _
    rw [(idx_facts t).1]; omega
  · show win0_0.index t (1 : Fin 2) * 512 + 1 * l.val = _
    rw [(idx_facts t).2.1]; omega

/-- The right block at `t`, entry (l, q): position `512·(t%8) + l`, column `1024·((t/8)%4) + q`. -/
theorem rhs_block (c : Dev nD) (t : Fin cfg0.N) (l : Fin 512) (q : Fin 1024) :
    (iblk m c 1 t : Vec Ideal S512x1024 .bf16) (ix2 l q)
      = at2 (WA m c) (512 * (t.val % 8) + l.val) (1024 * (t.val / 8 % 4) + q.val) := by
  unfold iblk
  rw [View.read_apply]
  show V m c main_v3 (((cfg0.win 1).blk t).view.emb (ix2 l q)) = _
  refine (at2_of_val (WA m c) _ ?_ ?_).symm
  · show win0_1.index t (0 : Fin 2) * 512 + 1 * l.val = _
    rw [(idx_facts t).2.2.1]; omega
  · show win0_1.index t (1 : Fin 2) * 1024 + 1 * q.val = _
    rw [(idx_facts t).2.2.2.1]; omega

/-- The addend's block at `t`, entry (p, q): row `1024·(t/32) + p`, column `1024·((t/8)%4) + q`. -/
theorem add_block (c : Dev nD) (t : Fin cfg0.N) (p q : Fin 1024) :
    (iblk m c 2 t : Vec Ideal S1024x1024 .f32) (ix2 p q)
      = at2 (YA m c) (1024 * (t.val / 32) + p.val) (1024 * (t.val / 8 % 4) + q.val) := by
  unfold iblk
  rw [View.read_apply]
  show V m c main_v1 (((cfg0.win 2).blk t).view.emb (ix2 p q)) = _
  refine (at2_of_val (YA m c) _ ?_ ?_).symm
  · show win0_2.index t (0 : Fin 2) * 1024 + 1 * p.val = _
    rw [(idx_facts t).2.2.2.2.1]; omega
  · show win0_2.index t (1 : Fin 2) * 1024 + 1 * q.val = _
    rw [(idx_facts t).2.2.2.2.2.1]; omega

end Cert.KernelIdeal.Blocks

end
-- ==== Proof.KernelAccumulate.lean ====
/-
  What the accumulator and the output block hold after each grid point.

  Write R = 1024·(n/32) + p for the row, Q = 1024·((n/8)%4) + q for the column, and k = n % 8 for the
  contraction step of point `n`. After point `n` the accumulator's entry (p, q) is the product of row R of the
  left operand with column Q of the right operand over the first 512·(k + 1) contracted positions: the first step
  of a contraction starts from the zero block, each later step adds its 512 positions to what the point before
  left (the point before has the same row and column blocks and the step before), and a sum over a range splits
  at a multiple of 512. At the last step (k = 7) all 4096 positions are in, and the output block's entry is the
  activation chain of that product and the addend's entry (R, Q).
-/
import proofs.«154402_j1580547970119_2_alg».proof.Proof.Gen.KernelIdeal.Frame
import proofs.«154402_j1580547970119_2_alg».proof.Proof.KernelPieces
import proofs.«154402_j1580547970119_2_alg».proof.Proof.KernelPayloads
import proofs.«154402_j1580547970119_2_alg».proof.Proof.KernelBlocks
import proofs.«154402_j1580547970119_2_alg».proof.Proof.LibBlockDot
import proofs.«154402_j1580547970119_2_alg».proof.Proof.Activation

noncomputable section

namespace Cert.KernelIdeal.Accumulate

open Idealize.ShloMosaic Idealize.ShloMosaic.TcCoe Idealize.ShloMosaic.ValueIdx Idealize.SL.Sem
open Cert.KernelIdeal Cert.KernelIdeal.Gen Cert.BlockDot Cert.Activation
open Cert.KernelIdeal.Pieces Cert.KernelIdeal.Payloads Cert.KernelIdeal.Blocks

/-- The first step of a contraction: from the zero block, the chunk's sum. -/
theorem first_step (x0 : FVec Ideal S1024x512 .bf16) (x1 : FVec Ideal S512x1024 .bf16) (p q : Fin 1024)
    (X : S8192x4096.Idx → EReal) (W : S4096x4096.Idx → EReal) (R Q K : ℕ)
    (hx0 : ∀ l : Fin 512, x0 (ix2 p l) = at2 X R (K + l.val)) (hx1 : ∀ l : Fin 512, x1 (ix2 l q) = at2 W (K + l.val) Q) :
    k0_pay2 (F := Ideal) (k0_pay1 (F := Ideal)) x0 x1 (ix2 p q) = ∑ k ∈ Finset.range 512, at2 X R (K + k) * at2 W (K + k) Q := by
  rw [pay2_apply, pay1_apply, zero_add, ← chunk_fin X W R Q K 512]
  exact Finset.sum_congr rfl fun l _ => by rw [hx0 l, hx1 l]

/-- A later step: the previous entry plus the chunk's sum. -/
theorem next_step (xs0 : FVec Ideal S1024x1024 .f32) (x0 : FVec Ideal S1024x512 .bf16) (x1 : FVec Ideal S512x1024 .bf16)
    (p q : Fin 1024) (X : S8192x4096.Idx → EReal) (W : S4096x4096.Idx → EReal) (R Q K : ℕ)
    (hx0 : ∀ l : Fin 512, x0 (ix2 p l) = at2 X R (K + l.val)) (hx1 : ∀ l : Fin 512, x1 (ix2 l q) = at2 W (K + l.val) Q) :
    k0_pay2 (F := Ideal) xs0 x0 x1 (ix2 p q)
      = xs0 (ix2 p q) + ∑ k ∈ Finset.range 512, at2 X R (K + k) * at2 W (K + k) Q := by
  rw [pay2_apply, ← chunk_fin X W R Q K 512]
  exact congrArg (xs0 (ix2 p q) + ·) (Finset.sum_congr rfl fun l _ => by rw [hx0 l, hx1 l])

variable (m : (ℓ : Loc nD τ sig) → Buf (Elt Ideal) ℓ)

/-- The accumulate step at a point that is not a contraction's first, over an accumulator that holds the product
    up to the step before: the product up to this step. -/
theorem step_value (c : Dev nD) (n : ℕ) (hn : n < cfg0.N) (h0 : ¬n % 8 = 0) (prev : FVec Ideal S1024x1024 .f32)
    (p q : Fin 1024)
    (hprev : prev (ix2 p q) = pdot (XA m c) (WA m c) (1024 * ((n - 1) / 32) + p.val) (1024 * ((n - 1) / 8 % 4) + q.val)
      (512 * ((n - 1) % 8) + 512)) :
    k0_pay2 (F := Ideal) prev (iblk m c 0 ⟨n, hn⟩) (iblk m c 1 ⟨n, hn⟩) (ix2 p q)
      = pdot (XA m c) (WA m c) (1024 * (n / 32) + p.val) (1024 * (n / 8 % 4) + q.val) (512 * (n % 8) + 512) := by
  refine (next_step prev (iblk m c 0 ⟨n, hn⟩) (iblk m c 1 ⟨n, hn⟩) p q (XA m c) (WA m c)
    (1024 * (n / 32) + p.val) (1024 * (n / 8 % 4) + q.val) (512 * (n % 8))
    (fun l => lhs_block m c ⟨n, hn⟩ p l) (fun l => rhs_block m c ⟨n, hn⟩ l q)).trans ?_
  rw [hprev, pdot_add (XA m c) (WA m c) _ _ (512 * (n % 8)) 512]
  have e1 : (n - 1) / 32 = n / 32 := by omega
  have e2 : (n - 1) / 8 % 4 = n / 8 % 4 := by omega
  have e3 : 512 * ((n - 1) % 8) + 512 = 512 * (n % 8) := by omega
  rw [e1, e2, e3]

/-- The invariant: after point `n` the accumulator's entry (p, q) is the product over the first 512·(n%8 + 1) positions. -/
theorem acc_eq (c : Dev nD) (n : ℕ) : ∀ (hn : n < cfg0.N) (p q : Fin 1024),
    (outsAt0 m c n hn).2 (ix2 p q)
      = pdot (XA m c) (WA m c) (1024 * (n / 32) + p.val) (1024 * (n / 8 % 4) + q.val) (512 * (n % 8) + 512) := by
  induction n using Nat.strong_induction_on with
  | _ n ih =>
    intro hn p q
    have hN : n < 256 := lt_of_lt_of_eq hn (show cfg0.N = 256 from N_0)
    by_cases h0 : n % 8 = 0
    · have h1 : ¬n % 8 = 7 := by omega
      rw [outsAt0_A m c ⟨n, hn⟩ h0 h1]
      dsimp only
      refine (congrFun (scratch_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _)
        ((hcond0_0 ⟨n, hn⟩).mpr h0) (fun h => h1 ((hcond0_1 ⟨n, hn⟩).mp h)) (iblk m c 0 ⟨n, hn⟩) (iblk m c 1 ⟨n, hn⟩) (iblk m c 2 ⟨n, hn⟩)) (ix2 p q)).trans ?_
      refine (first_step (iblk m c 0 ⟨n, hn⟩) (iblk m c 1 ⟨n, hn⟩) p q (XA m c) (WA m c)
        (1024 * (n / 32) + p.val) (1024 * (n / 8 % 4) + q.val) (512 * (n % 8))
        (fun l => lhs_block m c ⟨n, hn⟩ p l) (fun l => rhs_block m c ⟨n, hn⟩ l q)).trans ?_
      rw [pdot_add (XA m c) (WA m c) _ _ (512 * (n % 8)) 512]
      have e : 512 * (n % 8) = 0 := by omega
      rw [e, pdot_zero, zero_add]
    · have hlt : n - 1 < n := by omega
      have hn' : n - 1 < cfg0.N := Nat.lt_of_le_of_lt (Nat.sub_le _ _) hn
      have hprev := ih (n - 1) hlt hn' p q
      by_cases h1 : n % 8 = 7
      · rw [outsAt0_C m c ⟨n, hn⟩ h0 h1]
        dsimp only
        refine (congrFun (scratch_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _)
          (fun h => h0 ((hcond0_0 ⟨n, hn⟩).mp h)) ((hcond0_1 ⟨n, hn⟩).mpr h1) (iblk m c 0 ⟨n, hn⟩) (iblk m c 1 ⟨n, hn⟩) (iblk m c 2 ⟨n, hn⟩)
          (outsAt0 m c (n - 1) hn').2) (ix2 p q)).trans ?_
        exact step_value m c n hn h0 _ p q hprev
      · rw [outsAt0_B m c ⟨n, hn⟩ h0 h1]
        dsimp only
        refine (congrFun (scratch_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _)
          (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩)
          (outsAt0 m c (n - 1) hn').2) (ix2 p q)).trans ?_
        exact step_value m c n hn h0 _ p q hprev

/-- At a contraction's last step the output block's entry (p, q) is the activation chain of the whole product
    (4096 positions) and the addend's entry. -/
theorem out_eq (c : Dev nD) (n : ℕ) (hn : n < cfg0.N) (h7 : n % 8 = 7) (p q : Fin 1024) :
    (outsAt0 m c n hn).1 (ix2 p q)
      = epi (pdot (XA m c) (WA m c) (1024 * (n / 32) + p.val) (1024 * (n / 8 % 4) + q.val) 4096)
          (at2 (YA m c) (1024 * (n / 32) + p.val) (1024 * (n / 8 % 4) + q.val)) := by
  have h0 : ¬n % 8 = 0 := by omega
  have hn' : n - 1 < cfg0.N := Nat.lt_of_le_of_lt (Nat.sub_le _ _) hn
  rw [outsAt0_C m c ⟨n, hn⟩ h0 h7]
  dsimp only
  refine (congrFun (out_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _)
    (fun h => h0 ((hcond0_0 ⟨n, hn⟩).mp h)) ((hcond0_1 ⟨n, hn⟩).mpr h7) (iblk m c 0 ⟨n, hn⟩) (iblk m c 1 ⟨n, hn⟩) (iblk m c 2 ⟨n, hn⟩)
    (outsAt0 m c (n - 1) hn').2) (ix2 p q)).trans ?_
  refine (pay3_apply (k0_pay2 (F := Ideal) (outsAt0 m c (n - 1) hn').2 (iblk m c 0 ⟨n, hn⟩) (iblk m c 1 ⟨n, hn⟩))
    (iblk m c 2 ⟨n, hn⟩) (ix2 p q)).trans ?_
  rw [step_value m c n hn h0 _ p q (acc_eq m c (n - 1) hn' p q), add_block m c ⟨n, hn⟩ p q]
  have e : 512 * (n % 8) + 512 = 4096 := by omega
  rw [e]

end Cert.KernelIdeal.Accumulate

end
-- ==== Proof.KernelResult.lean ====
/-
  The array the pipeline leaves, and the kernel program's result.

  Every (row block, column block) pair is written back once, at its contraction's last step, with the activation
  chain of the whole products and the addend; the 8 × 4 blocks tile the 8192 × 4096 array, the block of entry (r, n)
  being written at point ((r/1024)·4 + n/1024)·8 + 7. So the array ends as one function `G` of the three arrays the
  region is entered with: entry (r, n) is the activation chain of row r of the left operand times column n of the
  right operand (4096 positions) and the addend's entry (r, n). The host lines before the region give those three
  arrays — the first argument with its leading two axes merged and its format changed (the identity on the extended
  reals), the third argument with its format changed, the second argument with its leading two axes merged — and
  the host line after the region splits the result's rows back into two axes.
-/
import proofs.«154402_j1580547970119_2_alg».proof.Proof.Gen.KernelIdeal.Frame
import proofs.«154402_j1580547970119_2_alg».proof.Proof.KernelAccumulate
import Idealize.ShloMosaic.Lib.Pipeline.Value
import Idealize.ShloMosaic.Lib.StableHlo.Run
import Idealize.ShloMosaic.Lib.Tactic

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.BlockDot Cert.Activation
open Cert.KernelIdeal.Blocks Cert.KernelIdeal.Accumulate

/-- One fused entry: the activation chain of row `r` of `X` times column `n` of `W` and the addend's entry. -/
def fused (X : S8192x4096.Idx → EReal) (W : S4096x4096.Idx → EReal) (Y : S8192x4096.Idx → EReal) :
    S8192x4096.Idx → EReal :=
  fun j => epi (pdot X W (j 0).val (j 1).val 4096) (Y j)

variable (m : (ℓ : Loc nD τ sig) → Buf (Elt Ideal) ℓ) (ρ : Dev nD → PrngReg)

/-- What the pipeline's result array ends holding, of the arrays the region is entered with. -/
abbrev G (c : Dev nD) : S8192x4096.Idx → EReal := fused (XA m c) (WA m c) (YA m c)

/-- What a write-back writes is its block of `G`. -/
theorem flushed_eq (c : Dev nD) (t : Fin cfg0.N) (hf : (cfg0.win 3).flush t = true) :
    (dats m 0 c).flushed 3 t = ((cfg0.win 3).blk t).view.read (Elt Ideal) (G m c) := by
  have h7 : t.val % 8 = 7 := (flush0_3 t).mp hf
  show (cfg0.win 3).cut (grid0.coords t) ((dats m 0 c).after 3 t) = _
  rw [after0_3]
  funext y
  obtain ⟨p, q, rfl⟩ : ∃ (p q : Fin 1024), y = ix2 p q := ⟨y 0, y 1, eq_ix2 y⟩
  rw [View.read_apply]
  show (outsAt0 m c t.val t.isLt).1 (ix2 p q) = G m c (((cfg0.win 3).blk t).view.emb (ix2 p q))
  have e0 : ((((cfg0.win 3).blk t).view.emb (ix2 p q)) 0).val = 1024 * (t.val / 32) + p.val := by
    show win0_3.index t (0 : Fin 2) * 1024 + 1 * p.val = _
    rw [(idx_facts t).2.2.2.2.2.2.1]; omega
  have e1 : ((((cfg0.win 3).blk t).view.emb (ix2 p q)) 1).val = 1024 * (t.val / 8 % 4) + q.val := by
    show win0_3.index t (1 : Fin 2) * 1024 + 1 * q.val = _
    rw [(idx_facts t).2.2.2.2.2.2.2]; omega
  rw [out_eq m c t.val t.isLt h7 p q, at2_of_val (YA m c) _ e0 e1]
  show _ = epi (pdot (XA m c) (WA m c) ((((cfg0.win 3).blk t).view.emb (ix2 p q)) 0).val
    ((((cfg0.win 3).blk t).view.emb (ix2 p q)) 1).val 4096) _
  rw [e0, e1]

/-- An index of the array is in point `t`'s block iff each coordinate is in the block's range on its axis. -/
theorem mem_blk (t : Fin cfg0.N) (i : S8192x4096.Idx) :
    i ∈ ((cfg0.win 3).blk t).view.set
      ↔ ∀ a : Fin 2, win0_3.index t a * S1024x1024.size a ≤ (i a).val
          ∧ (i a).val < win0_3.index t a * S1024x1024.size a + S1024x1024.size a := by
  show i ∈ ((View.whole main_v4).slice (win0_3.rect t)).set ↔ _
  rw [View.set_slice_whole, Rect.mem_set_unit]
  exact Iff.rfl

/-- Every entry is in the block some write-back writes. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 256 := N_0
  have hlt : ((i 0).val / 1024 * 4 + (i 1).val / 1024) * 8 + 7 < cfg0.N := by rw [hN]; omega
  refine ⟨⟨((i 0).val / 1024 * 4 + (i 1).val / 1024) * 8 + 7, hlt⟩, (flush0_3 _).mpr (by show (((i 0).val / 1024 * 4 + (i 1).val / 1024) * 8 + 7) % 8 = 7; omega), ?_⟩
  rw [mem_blk]
  have f0 := (idx_facts ⟨((i 0).val / 1024 * 4 + (i 1).val / 1024) * 8 + 7, hlt⟩).2.2.2.2.2.2.1
  have f1 := (idx_facts ⟨((i 0).val / 1024 * 4 + (i 1).val / 1024) * 8 + 7, hlt⟩).2.2.2.2.2.2.2
  intro a
  match a with
  | ⟨0, _⟩ =>
    show win0_3.index _ (0 : Fin 2) * 1024 ≤ (i 0).val ∧ (i 0).val < win0_3.index _ (0 : Fin 2) * 1024 + 1024
    rw [f0]
    show (((i 0).val / 1024 * 4 + (i 1).val / 1024) * 8 + 7) / 32 * 1024 ≤ (i 0).val
      ∧ (i 0).val < (((i 0).val / 1024 * 4 + (i 1).val / 1024) * 8 + 7) / 32 * 1024 + 1024
    omega
  | ⟨1, _⟩ =>
    show win0_3.index _ (1 : Fin 2) * 1024 ≤ (i 1).val ∧ (i 1).val < win0_3.index _ (1 : Fin 2) * 1024 + 1024
    rw [f1]
    show (((i 0).val / 1024 * 4 + (i 1).val / 1024) * 8 + 7) / 8 % 4 * 1024 ≤ (i 1).val
      ∧ (i 1).val < (((i 0).val / 1024 * 4 + (i 1).val / 1024) * 8 + 7) / 8 % 4 * 1024 + 1024
    omega

/-- The array after the region is `G`: the blocks written back cover it. -/
theorem final (c : Dev nD) : (dats m 0 c).arrAt 3 cfg0.N = G m c :=
  (dats m 0 c).arrAt_eq_of_cover 3 (G m c) (flushed_eq m c) cover

/-! ## The host lines before the region -/

/-- The left operand: the first argument, its two leading axes merged (the format change is the identity). -/
theorem XA_eq (c : Dev nD) :
    XA m c = shapeCast S8192x4096 (m ((c : Thread nD τ).loc main_arg0)) shapeCasts_S4x2048x4096_S8192x4096 := by
  show StableHlo.after hostOps0 (fun b => m (c, b)) (Proc.devRef .tc main_v2) = _
  after_results
  rfl

/-- The right operand: the third argument (the format change is the identity). -/
theorem WA_eq (c : Dev nD) : WA m c = m ((c : Thread nD τ).loc main_arg2) := by
  show StableHlo.after hostOps0 (fun b => m (c, b)) (Proc.devRef .tc main_v3) = _
  after_results
  rfl

/-- The addend: the second argument, its two leading axes merged. -/
theorem YA_eq (c : Dev nD) :
    YA m c = shapeCast S8192x4096 (m ((c : Thread nD τ).loc main_arg1)) shapeCasts_S4x2048x4096_S8192x4096 := by
  show StableHlo.after hostOps0 (fun b => m (c, b)) (Proc.devRef .tc main_v1) = _
  after_results
  rfl

/-! ## The host line after the region, and the run -/

/-- The program's result: the pipeline's array with its rows split back into two axes. -/
abbrev result (c : Dev nD) : S4x2048x4096.Idx → EReal :=
  shapeCast S4x2048x4096
    (fused (shapeCast S8192x4096 (m ((c : Thread nD τ).loc main_arg0)) shapeCasts_S4x2048x4096_S8192x4096)
      (m ((c : Thread nD τ).loc main_arg2))
      (shapeCast S8192x4096 (m ((c : Thread nD τ).loc main_arg1)) shapeCasts_S4x2048x4096_S8192x4096))
    shapeCasts_S8192x4096_S4x2048x4096

theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  rw [(Pipeline.withArrays_arr spec0 launch0.win.arr_inj c _ _ 3).trans (final m c)]
  unfold G
  rw [XA_eq, WA_eq, YA_eq]
  rfl

/-- The frame run, read: the result at `result`, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefSide.lean ====
/-
  The reference program read at an entry: after its one contraction every operation is pointwise, and the chain
  it applies to the contraction's entry and the addend's entry is the activation chain `Activation.epi` — with the
  softplus exponent written as a negation, which `Activation.epi_neg_form` identifies with the difference form.
-/
import proofs.«154402_j1580547970119_2_alg».proof.Proof.Gen.ReferenceIdeal.Run
import proofs.«154402_j1580547970119_2_alg».proof.Proof.Gen.ReferenceIdeal.Read
import proofs.«154402_j1580547970119_2_alg».proof.Proof.Activation

noncomputable section

namespace Cert.ReferenceIdeal.RefSide

open Cert.ReferenceIdeal Cert.ReferenceIdeal.Gen Cert.ReferenceIdeal.Read Idealize.ShloMosaic Cert.Activation

/-- The reference's result at an entry is the activation chain of its contraction's entry and the addend's entry. -/
theorem result_apply (x0 x1 : (⟨S4x2048x4096, .f32⟩ : BufTy).Contents (Elt Ideal))
    (x2 : (⟨S4096x4096, .f32⟩ : BufTy).Contents (Elt Ideal)) (i : S4x2048x4096.Idx) :
    val_main_v17 (F := Ideal) x0 x1 x2 i = epi (val_main_v0 (F := Ideal) x0 x2 i) (x1 i) := by
  rw [epi_neg_form]
  simp only [val_main_v17_apply, val_main_v16_apply, val_main_cst_5_apply, val_main_v15_apply, val_main_v14_apply,
    val_main_cst_4_apply, val_main_v13_apply, val_main_v12_apply, val_main_call2_v4_apply, val_main_call2_v3_apply,
    val_main_cst_3_apply, val_main_call2_v2_apply, val_main_call2_v1_apply, val_main_call2_v0_apply, val_main_cst_2_apply,
    val_main_v11_apply, val_main_v10_apply, val_main_cst_1_apply, val_main_v9_apply, val_main_v8_apply, val_main_v7_apply,
    val_main_call1_v11_apply, val_main_call1_v10_apply, val_main_call1_v9_apply, val_main_call1_v8_apply,
    val_main_call1_v7_apply, val_main_call1_v6_apply, val_main_call1_v5_apply, val_main_call1_v4_apply,
    val_main_call1_v3_apply, val_main_call1_v2_apply, val_main_call1_v1_apply, val_main_call1_v0_apply,
    val_main_call1_cst_apply, val_main_v6_apply, val_main_v5_apply, val_main_v4_apply, val_main_v3_apply,
    val_main_cst_0_apply, val_main_v2_apply, val_main_v1_apply, val_main_cst_apply]
  rfl

end Cert.ReferenceIdeal.RefSide

end
-- ==== Proof.Bridge.lean ====
/-
  The two programs compute one function of the three argument arrays, entry by entry, over the extended reals.

  At entry (b, r, n) the kernel program's result is the fused entry at row 2048·b + r and column n of the arrays
  with merged leading axes: the activation chain of ∑ₖ x(b, r, k) · w(k, n) over the 4096 contracted positions
  (summed as one range, whatever the order and grouping in which the kernel accumulated it) and y(b, r, n). The
  reference's result at the same entry is the activation chain of its one contraction's entry, the same sum, and
  y(b, r, n). Merging or splitting the two leading axes keeps the row-major position: (b·2048 + r)·4096 + k.
-/
import proofs.«154402_j1580547970119_2_alg».proof.Proof.KernelResult
import proofs.«154402_j1580547970119_2_alg».proof.Proof.RefSide

noncomputable section

namespace Cert.Bridge

open Idealize.ShloMosaic Idealize.ShloMosaic.ValueIdx Cert.BlockDot Cert.Activation
open Cert.KernelIdeal Cert.KernelIdeal.Gen Cert.KernelIdeal.Result

/-- The array with merged leading axes, at row 2048·b + r and position k, is the array at (b, r, k). -/
theorem merge_rows {α : Type} (x : S4x2048x4096.Idx → α) (h : S4x2048x4096.ShapeCasts S8192x4096)
    (b : Fin 4) (r : Fin 2048) (k : Fin 4096) (hR : 2048 * b.val + r.val < 8192) :
    shapeCast S8192x4096 x h (ix2 ⟨2048 * b.val + r.val, hR⟩ k) = x (ix3 b r k) :=
  shapeCast_apply x h _ _ (by
    rw [Shape.rowMajor_val_three, Shape.rowMajor_val_two]
    show (b.val * 2048 + r.val) * 4096 + k.val = (2048 * b.val + r.val) * 4096 + k.val
    omega)

/-- The array with its rows split back into two axes, at (b, r, n), is the array at row 2048·b + r and column n. -/
theorem split_rows {α : Type} (g : S8192x4096.Idx → α) (h : S8192x4096.ShapeCasts S4x2048x4096)
    (b : Fin 4) (r : Fin 2048) (n : Fin 4096) (hR : 2048 * b.val + r.val < 8192) :
    shapeCast S4x2048x4096 g h (ix3 b r n) = g (ix2 ⟨2048 * b.val + r.val, hR⟩ n) :=
  shapeCast_apply g h _ _ (by
    rw [Shape.rowMajor_val_two, Shape.rowMajor_val_three]
    show (2048 * b.val + r.val) * 4096 + n.val = (b.val * 2048 + r.val) * 4096 + n.val
    omega)

/-- The kernel program's result is the reference's, as functions of the three argument arrays. -/
theorem kernel_eq_reference (x0 x1 : (⟨Cert.ReferenceIdeal.S4x2048x4096, .f32⟩ : BufTy).Contents (Elt Ideal))
    (x2 : (⟨Cert.ReferenceIdeal.S4096x4096, .f32⟩ : BufTy).Contents (Elt Ideal)) :
    shapeCast S4x2048x4096
        (fused (shapeCast S8192x4096 x0 shapeCasts_S4x2048x4096_S8192x4096) x2
          (shapeCast S8192x4096 x1 shapeCasts_S4x2048x4096_S8192x4096))
        shapeCasts_S8192x4096_S4x2048x4096
      = Cert.ReferenceIdeal.Read.val_main_v17 (F := Ideal) x0 x1 x2 := by
  funext i
  obtain ⟨b, r, n, rfl⟩ : ∃ (b : Fin 4) (r : Fin 2048) (n : Fin 4096), i = ix3 b r n := ⟨i 0, i 1, i 2, eq_ix3 i⟩
  have hR : 2048 * b.val + r.val < 8192 := by have := b.isLt; have := r.isLt; omega
  rw [Cert.ReferenceIdeal.RefSide.result_apply, Cert.ReferenceIdeal.Read.val_main_v0_apply,
    split_rows _ shapeCasts_S8192x4096_S4x2048x4096 b r n hR]
  unfold fused
  refine congrArg₂ epi ?_ ?_
  · show pdot _ x2 (2048 * b.val + r.val) n.val 4096 = _
    unfold pdot
    rw [← Fin.sum_univ_eq_sum_range
      (fun k => at2 (shapeCast S8192x4096 x0 shapeCasts_S4x2048x4096_S8192x4096) (2048 * b.val + r.val) k * at2 x2 k n.val) 4096]
    refine Finset.sum_congr rfl fun k _ => ?_
    rw [at2_of_val (shapeCast S8192x4096 x0 shapeCasts_S4x2048x4096_S8192x4096) (ix2 ⟨2048 * b.val + r.val, hR⟩ k) rfl rfl,
      at2_of_val x2 (ix2 k n) rfl rfl, merge_rows x0 _ b r k hR]
    refine congrArg₂ (· * ·) (congrArg x0 ?_) (congrArg x2 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact merge_rows x1 _ b r n hR

end Cert.Bridge

end
-- ==== Proof.lean ====
/-
  A fused matrix product with an activation epilogue against its plain reference, over the extended reals.

  Both programs map x : [4, 2048, 4096], y : [4, 2048, 4096] and w : [4096, 4096] to the array whose entry
  (b, r, n) is the activation chain (a leaky rectifier, the addend y, Mish, a shifted hard-swish:
  Proof/Activation.lean) of the product entry ∑ₖ x(b, r, k) · w(k, n) and y(b, r, n).

  The kernel program merges the two leading axes, and a grid of 8 × 4 × 8 points accumulates the product of a
  1024 × 1024 block in eight steps of 512 contracted positions into a scratch block that is zeroed at the first
  step; at the eighth step it applies the chain and the block is written back. After each point the scratch holds
  the product over the positions met so far (Proof/KernelAccumulate.lean, by induction on the point); the blocks
  written back tile the array (Proof/KernelResult.lean); and regrouping a finite sum of extended reals into
  consecutive chunks changes nothing, so no finiteness of the inputs is used: the precondition is never opened.
  The reference contracts once and applies the same chain with the same float words (Proof/RefSide.lean), its
  softplus exponent written as a negation where the kernel writes a difference from zero. Proof/Bridge.lean joins
  the two entry by entry.

  The three frames are the generated runs; the idealization rewrote nothing, so it is preserved trivially.
-/
import proofs.«154402_j1580547970119_2_alg».proof.Defs
import proofs.«154402_j1580547970119_2_alg».proof.Proof.Gen.Kernel
import proofs.«154402_j1580547970119_2_alg».proof.Proof.Gen.Kernel.Skeleton
import proofs.«154402_j1580547970119_2_alg».proof.Proof.Gen.Kernel.Launch
import proofs.«154402_j1580547970119_2_alg».proof.Proof.Gen.Kernel.Points
import proofs.«154402_j1580547970119_2_alg».proof.Proof.Gen.Kernel.Frame
import proofs.«154402_j1580547970119_2_alg».proof.Proof.Gen.KernelIdeal
import proofs.«154402_j1580547970119_2_alg».proof.Proof.Gen.KernelIdeal.Skeleton
import proofs.«154402_j1580547970119_2_alg».proof.Proof.Gen.KernelIdeal.Launch
import proofs.«154402_j1580547970119_2_alg».proof.Proof.Gen.KernelIdeal.Points
import proofs.«154402_j1580547970119_2_alg».proof.Proof.Gen.KernelIdeal.Frame
import proofs.«154402_j1580547970119_2_alg».proof.Proof.Gen.ReferenceIdeal
import proofs.«154402_j1580547970119_2_alg».proof.Proof.Gen.ReferenceIdeal.Run
import proofs.«154402_j1580547970119_2_alg».proof.Proof.Gen.ReferenceIdeal.Read
import proofs.«154402_j1580547970119_2_alg».proof.Proof.Gen.Pre_finite_inputs
import proofs.«154402_j1580547970119_2_alg».proof.Proof.KernelResult
import proofs.«154402_j1580547970119_2_alg».proof.Proof.RefSide
import proofs.«154402_j1580547970119_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at one function of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2]
  exact (Cert.Bridge.kernel_eq_reference _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
